-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S16x1024x1024 .f32) (main_arg1 : FVec F S16x1024x1024 .f32) (main_arg2 : FVec F S16x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x1024 : Shape := ⟨2, ![1, 1024]⟩
abbrev S1x128x1024 : Shape := ⟨3, ![1, 128, 1024]⟩
abbrev S1x1024x1024 : Shape := ⟨3, ![1, 1024, 1024]⟩
abbrev S128x1024 : Shape := ⟨2, ![128, 1024]⟩
abbrev S128 : Shape := ⟨1, ![128]⟩
abbrev S128x1 : Shape := ⟨2, ![128, 1]⟩

abbrev nBuf : Space → Nat
  | .hbm => 19
  | .vmem => 16
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16x1024x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x128x1024, .f32⟩
  | .local _ .vmem, ⟨13, _⟩ => ⟨S1x128x1024, .f32⟩
  | .local _ .vmem, ⟨14, _⟩ => ⟨S1024x1024, .bf16⟩
  | .local _ .vmem, ⟨15, _⟩ => ⟨S1024x1024, .bf16⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  shapeCasts_S128x1024_S1x128x1024 : S128x1024.ShapeCasts S1x128x1024
  dot_S1024x1024_S1024x1024_S1024x1024_1_0_0_1_n_n_wf : DotDims.WF S1024x1024 S1024x1024 S1024x1024 [1] [0] [0] [1] [] []
  dot_S128x1024_S1024x1024_S128x1024_1_0_0_1_n_n_wf : DotDims.WF S128x1024 S1024x1024 S128x1024 [1] [0] [0] [1] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S16x1024x1024.size a
  hwx0_0 : ∀ i : grid0.Coords, EltTy.bits .f32 = 32 ∨ (Rect.block (s := S16x1024x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .f32 = 32 ∨ (Rect.block (s := S16x1024x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x1024.size a ≤ S16x1024x1024.size a
  hwx0_9 : ∀ i : grid0.Coords, EltTy.bits .f32 = 32 ∨ (Rect.block (s := S16x1024x1024) S1x128x1024.size (cc0_transform_9 i) (hinb0_9 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16x1024x1024, .f32⟩
  | .hbm, ⟨10, _⟩ => ⟨S1x1x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S1x1x1024, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1024x1024, .f32⟩
  | .hbm, ⟨25, _⟩ => ⟨S16x1024x1024, .f32⟩
  | .hbm, ⟨26, _⟩ => ⟨S16x1024x1024, .f32⟩
  | .hbm, ⟨27, _⟩ => ⟨S_, .f32⟩
  | .hbm, ⟨28, _⟩ => ⟨S16x1024, .f32⟩
  | .hbm, ⟨29, _⟩ => ⟨S16x1024x1, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S_, .f32⟩
  | .hbm, ⟨34, _⟩ => ⟨S_, .f32⟩
  | .hbm, ⟨35, _⟩ => ⟨S16x1024x1024, .f32⟩
  | .hbm, ⟨36, _⟩ => ⟨S16x1024x1024, .f32⟩
  | .hbm, ⟨37, _⟩ => ⟨S16x1024x1024, .f32⟩
  | .hbm, ⟨38, _⟩ => ⟨S1x1x1024, .f32⟩
  | .hbm, ⟨39, _⟩ => ⟨S16x1024x1024, .f32⟩
  | .hbm, ⟨40, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.AttnSpec.lean ====
/-
  The function both programs compute, stated once, index by index, on the extended reals.

  Single-head attention over a batch of 16 sequences of 1024 rows and width 1024. With
  `proj x W β b t o = Σ_h x[b,t,h] · W[o,h] + β[o]` (a row times the transposed weight, plus the bias),
  the score of query row `t` against key row `s` of batch `b` is `Σ_o proj(query) b t o · proj(keys) b s o`;
  a row of scores is turned into weights by the shifted softmax `exp(f s − M) / Σ_s' exp(f s' − M)`, where
  `M = max(−∞, max_s f s)`; the context row is `Σ_s weight s · values[b,s,h]`, scaled by `2⁻⁵ = 1/√1024`; and
  the output is `Σ_h context h · Wo[o,h] + bo[o]`.

  Every sum is over `Fin 1024` in the order of the index, and nothing is rearranged: the two programs differ
  only in where they tile and in how they spell the scale, so the one law needed is that dividing by `√1024`
  is multiplying by the word `0x3D000000` (`div_sqrt_1024`).
-/
import Idealize.ShloMosaic.PureOps.Ideal
import Idealize.ShloMosaic.Lib.ValueIdx

noncomputable section

open scoped BigOperators

namespace Cert.Attn

open Idealize.ShloMosaic Idealize.ShloMosaic.ValueIdx

/-- A batch of 16 matrices of 1024 rows and 1024 columns. -/
abbrev Batch : Shape := ⟨3, ![16, 1024, 1024]⟩
/-- A weight matrix, `[out, in]`. -/
abbrev Mat : Shape := ⟨2, ![1024, 1024]⟩
/-- A bias vector. -/
abbrev Row : Shape := ⟨1, ![1024]⟩

/-- `−∞`, as the word both programs start a maximum from. -/
abbrev negInf : EReal := Ideal.ofBits .f32 0xFF800000#32
/-- `2⁻⁵`, as the word the kernel multiplies the context by. -/
abbrev scale : EReal := Ideal.ofBits .f32 0x3D000000#32

/-- A linear layer at one output entry: row `(b, t)` of `x` against row `o` of `W`, plus `β o`. -/
def proj (x : Batch.Idx → EReal) (W : Mat.Idx → EReal) (β : Row.Idx → EReal) (b : Fin 16) (t o : Fin 1024) : EReal :=
  (∑ h : Fin 1024, x (ix3 b t h) * W (ix2 o h)) + β (ix1 o)

/-- The score of a projected query row against a projected key row: their inner product. -/
def score (q k : Fin 16 → Fin 1024 → Fin 1024 → EReal) (b : Fin 16) (t s : Fin 1024) : EReal :=
  ∑ o : Fin 1024, q b t o * k b s o

/-- The maximum of a row, folded from `−∞` and joined with `−∞` once more (as both programs do). -/
def rowMax (f : Fin 1024 → EReal) : EReal :=
  max negInf ((Finset.univ : Finset (Fin 1024)).fold max negInf f)

/-- The shifted exponential of a row's entry. -/
def expShift (f : Fin 1024 → EReal) (s : Fin 1024) : EReal := Ideal.exp (f s - rowMax f)

/-- The softmax weight of entry `s` of a row. -/
def soft (f : Fin 1024 → EReal) (s : Fin 1024) : EReal :=
  Ideal.div (expShift f s) (∑ s' : Fin 1024, expShift f s')

/-- The attention weights' row `(b, t)` against the values: entry `h` of the context. -/
def context (w : Fin 16 → Fin 1024 → Fin 1024 → EReal) (v : Batch.Idx → EReal) (b : Fin 16) (t h : Fin 1024) : EReal :=
  ∑ s : Fin 1024, w b t s * v (ix3 b s h)

section
variable (query keys values : Batch.Idx → EReal) (Wq : Mat.Idx → EReal) (bq : Row.Idx → EReal)
  (Wk : Mat.Idx → EReal) (bk : Row.Idx → EReal) (Wo : Mat.Idx → EReal) (bo : Row.Idx → EReal)

/-- The softmax weights of query row `(b, t)` over the key rows of batch `b`. -/
def weights (b : Fin 16) (t s : Fin 1024) : EReal :=
  soft (score (proj query Wq bq) (proj keys Wk bk) b t) s

/-- The scaled context. -/
def scaled (b : Fin 16) (t h : Fin 1024) : EReal :=
  context (weights query keys Wq bq Wk bk) values b t h * scale

/-- The output at `(b, t, o)`. -/
def outAt (b : Fin 16) (t o : Fin 1024) : EReal :=
  (∑ h : Fin 1024, scaled query keys values Wq bq Wk bk b t h * Wo (ix2 o h)) + bo (ix1 o)

/-- The whole result array. -/
def result : Batch.Idx → EReal := fun i =>
  outAt query keys values Wq bq Wk bk Wo bo (show Fin 16 from i 0) (show Fin 1024 from i 1) (show Fin 1024 from i 2)

theorem result_ix3 (b : Fin 16) (t o : Fin 1024) :
    result query keys values Wq bq Wk bk Wo bo (ix3 b t o) = outAt query keys values Wq bq Wk bk Wo bo b t o := rfl

end

/-- The word `0x44800000` is the real `1024`. -/
theorem ofBits_1024 : Ideal.ofBits .f32 0x44800000#32 = ((1024 : ℝ) : EReal) := by
  simp [Ideal.ofBits, Ideal.ieee, -EReal.coe_mul]; norm_num

/-- The word `0x3D000000` is the real `1/32`. -/
theorem scale_eq : scale = ((1 / 32 : ℝ) : EReal) := by
  simp [scale, Ideal.ofBits, Ideal.ieee, -EReal.coe_mul]; norm_num

/-- `√1024 = 32`, so dividing an extended real by `√1024` is multiplying it by `2⁻⁵`. -/
theorem div_sqrt_1024 (x : EReal) :
    Ideal.div x (Ideal.sqrt (Ideal.ofBits .f32 0x44800000#32)) = x * scale := by
  have h32 : Real.sqrt 1024 = 32 := by
    rw [show (1024 : ℝ) = 32 ^ 2 by norm_num]; exact Real.sqrt_sq (by norm_num)
  rw [ofBits_1024, Ideal.sqrt_coe, if_neg (by norm_num), h32, Ideal.div_coe (by norm_num : (32 : ℝ) ≠ 0), scale_eq]

end Cert.Attn

end
-- ==== Proof.RefAttn.lean ====
/-
  The reference program computes the attention specification.

  The reference is a chain of array operations: two linear layers (a contraction over the last axis against a
  transposed weight, plus a bias broadcast over the batch and the rows), the batched inner product of their
  results, a row maximum folded from `−∞` and joined with `−∞`, the exponential of the shifted scores, their row
  sum from zero, the quotient, the batched product with the values, a division by `√1024`, and a last linear layer.

  Each lemma below reads one stage of that chain at an index given by its coordinates `(b, t, ·)` and states it as
  the corresponding function of the specification. Nothing is rearranged: every sum runs over `Fin 1024` in the
  order of the index on both sides, so once the operands' indices are written by coordinates each stage closes by
  unfolding. The two facts used beyond that are that the word of zero is `0` (the row sum's initial value) and
  that dividing by `√1024` is multiplying by `2⁻⁵`.
-/
import proofs.«117021_j17970143166479_2_alg».proof.Proof.Gen.ReferenceIdeal.Read
import proofs.«117021_j17970143166479_2_alg».proof.Proof.AttnSpec
import Idealize.ShloMosaic.Lib.ValueIdx
import Idealize.ShloMosaic.PureOps.Ideal.Laws
import Idealize.ShloMosaic.Lib.Pipeline.Value

noncomputable section

open scoped BigOperators

namespace Cert.Attn.Ref

open Cert.ReferenceIdeal Cert.ReferenceIdeal.Gen Cert.ReferenceIdeal.Read Idealize.ShloMosaic Idealize.ShloMosaic.ValueIdx

/-! ## Indices: the reference's index functions at coordinates

Each operation of the reference reads its operands at an index computed from the result's index. At a result index
given by its coordinates these are again indices given by coordinates. -/

/-- The left operand's index of a row-times-transposed-weight product: row `(b, t)`, column `k`. -/
theorem lidx_v0 (b : Fin 16) (t o k : Fin 1024) : lidx_main_v0 (ix3 b t o) k = ix3 b t k :=
  funext fun a => Fin.ext (by match a with | ⟨0, _⟩ => rfl | ⟨1, _⟩ => rfl | ⟨2, _⟩ => rfl)
/-- The right operand's index of that product: row `o` of the weight, column `k`. -/
theorem ridx_v0 (b : Fin 16) (t o k : Fin 1024) : ridx_main_v0 (ix3 b t o) k = ix2 o k :=
  funext fun a => Fin.ext (by match a with | ⟨0, _⟩ => rfl | ⟨1, _⟩ => rfl)
/-- The bias is read at the last coordinate. -/
theorem idx_v1_v2 (b : Fin 16) (t o : Fin 1024) : idx_main_v1 (idx_main_v2 (ix3 b t o)) = ix1 o :=
  funext fun a => Fin.ext (by match a with | ⟨0, _⟩ => rfl)

theorem lidx_v4 (b : Fin 16) (t o k : Fin 1024) : lidx_main_v4 (ix3 b t o) k = ix3 b t k :=
  funext fun a => Fin.ext (by match a with | ⟨0, _⟩ => rfl | ⟨1, _⟩ => rfl | ⟨2, _⟩ => rfl)
theorem ridx_v4 (b : Fin 16) (t o k : Fin 1024) : ridx_main_v4 (ix3 b t o) k = ix2 o k :=
  funext fun a => Fin.ext (by match a with | ⟨0, _⟩ => rfl | ⟨1, _⟩ => rfl)
theorem idx_v5_v6 (b : Fin 16) (t o : Fin 1024) : idx_main_v5 (idx_main_v6 (ix3 b t o)) = ix1 o :=
  funext fun a => Fin.ext (by match a with | ⟨0, _⟩ => rfl)

/-- The score's operands: query row `(b, t)` and key row `(b, s)`, both at column `o`. -/
theorem lidx_v8 (b : Fin 16) (t s o : Fin 1024) : lidx_main_v8 (ix3 b t s) o = ix3 b t o :=
  funext fun a => Fin.ext (by match a with | ⟨0, _⟩ => rfl | ⟨1, _⟩ => rfl | ⟨2, _⟩ => rfl)
theorem ridx_v8 (b : Fin 16) (t s o : Fin 1024) : ridx_main_v8 (ix3 b t s) o = ix3 b s o :=
  funext fun a => Fin.ext (by match a with | ⟨0, _⟩ => rfl | ⟨1, _⟩ => rfl | ⟨2, _⟩ => rfl)

/-- A row statistic broadcast back over the row is read at `(b, t)`. -/
theorem idx_v12_v13 (b : Fin 16) (t s : Fin 1024) : idx_main_v12 (idx_main_v13 (ix3 b t s)) = ix2 b t :=
  funext fun a => Fin.ext (by match a with | ⟨0, _⟩ => rfl | ⟨1, _⟩ => rfl)
theorem idx_v17_v18 (b : Fin 16) (t s : Fin 1024) : idx_main_v17 (idx_main_v18 (ix3 b t s)) = ix2 b t :=
  funext fun a => Fin.ext (by match a with | ⟨0, _⟩ => rfl | ⟨1, _⟩ => rfl)
/-- The sum over a row reads the row's entries in order. -/
theorem idx_v16 (b : Fin 16) (t k : Fin 1024) : idx_main_v16 (ix2 b t) k = ix3 b t k :=
  funext fun a => Fin.ext (by match a with | ⟨0, _⟩ => rfl | ⟨1, _⟩ => rfl | ⟨2, _⟩ => rfl)

/-- The context's operands: weight `(b, t, s)` and value `(b, s, h)`. -/
theorem lidx_v20 (b : Fin 16) (t h s : Fin 1024) : lidx_main_v20 (ix3 b t h) s = ix3 b t s :=
  funext fun a => Fin.ext (by match a with | ⟨0, _⟩ => rfl | ⟨1, _⟩ => rfl | ⟨2, _⟩ => rfl)
theorem ridx_v20 (b : Fin 16) (t h s : Fin 1024) : ridx_main_v20 (ix3 b t h) s = ix3 b s h :=
  funext fun a => Fin.ext (by match a with | ⟨0, _⟩ => rfl | ⟨1, _⟩ => rfl | ⟨2, _⟩ => rfl)

theorem lidx_v24 (b : Fin 16) (t o k : Fin 1024) : lidx_main_v24 (ix3 b t o) k = ix3 b t k :=
  funext fun a => Fin.ext (by match a with | ⟨0, _⟩ => rfl | ⟨1, _⟩ => rfl | ⟨2, _⟩ => rfl)
theorem ridx_v24 (b : Fin 16) (t o k : Fin 1024) : ridx_main_v24 (ix3 b t o) k = ix2 o k :=
  funext fun a => Fin.ext (by match a with | ⟨0, _⟩ => rfl | ⟨1, _⟩ => rfl)
theorem idx_v25_v26 (b : Fin 16) (t o : Fin 1024) : idx_main_v25 (idx_main_v26 (ix3 b t o)) = ix1 o :=
  funext fun a => Fin.ext (by match a with | ⟨0, _⟩ => rfl)

/-! ## The two projections and the score -/

/-- Operation 3 is the query projection. -/
theorem v3_at (x0 : (⟨S16x1024x1024, .f32⟩ : BufTy).Contents (Elt Ideal)) (x3 : (⟨S1024x1024, .f32⟩ : BufTy).Contents (Elt Ideal)) (x4 : (⟨S1024, .f32⟩ : BufTy).Contents (Elt Ideal)) (b : Fin 16) (t o : Fin 1024) :
    val_main_v3 (F := Ideal) x0 x3 x4 (ix3 b t o) = Cert.Attn.proj x0 x3 x4 b t o := by
  rw [val_main_v3_apply, val_main_v0_apply, val_main_v2_apply, val_main_v1_apply, idx_v1_v2]
  simp only [Ideal.addf_def, lidx_v0, ridx_v0]
  rfl

/-- Operation 7 is the key projection. -/
theorem v7_at (x1 : (⟨S16x1024x1024, .f32⟩ : BufTy).Contents (Elt Ideal)) (x5 : (⟨S1024x1024, .f32⟩ : BufTy).Contents (Elt Ideal)) (x6 : (⟨S1024, .f32⟩ : BufTy).Contents (Elt Ideal)) (b : Fin 16) (s o : Fin 1024) :
    val_main_v7 (F := Ideal) x1 x5 x6 (ix3 b s o) = Cert.Attn.proj x1 x5 x6 b s o := by
  rw [val_main_v7_apply, val_main_v4_apply, val_main_v6_apply, val_main_v5_apply, idx_v5_v6]
  simp only [Ideal.addf_def, lidx_v4, ridx_v4]
  rfl

/-- Operation 8 is the score: the inner product of a projected query row and a projected key row. -/
theorem v8_at (x0 x1 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t s : Fin 1024) :
    val_main_v8 (F := Ideal) x0 x1 x3 x4 x5 x6 (ix3 b t s)
      = Cert.Attn.score (Cert.Attn.proj x0 x3 x4) (Cert.Attn.proj x1 x5 x6) b t s := by
  rw [val_main_v8_apply]
  unfold Cert.Attn.score
  refine Finset.sum_congr rfl fun o _ => ?_
  rw [lidx_v8, ridx_v8, v3_at, v7_at]

/-! ## The row maximum -/

/-- Dropping the last axis of a batch of matrices leaves the batch of rows. -/
theorem reduces_last : S16x1024x1024.Reduces [2] S16x1024 := by decide

/-- A row index `(b, t)` with the coordinate `s` put back on the last axis is `(b, t, s)`. -/
theorem lift_last (h : S16x1024x1024.Reduces [2] S16x1024) (b : Fin 16) (t : Fin 1024) (s : Fin (S16x1024x1024.size 2)) :
    h.lift (ix2 b t) s = ix3 b t (⟨s.val, s.isLt⟩ : Fin 1024) :=
  funext fun a => Fin.ext (by match a with | ⟨0, _⟩ => rfl | ⟨1, _⟩ => rfl | ⟨2, _⟩ => rfl)

/-- A maximum taken over the last axis from `−∞`, at row `(b, t)`, is the fold of `max` over that row's entries. -/
theorem reduce_max_at (x : FVec Ideal S16x1024x1024 .f32) (b : Fin 16) (t : Fin 1024) :
    Host.reduce (FloatOps.maximumf (F := Ideal) (φ := .f32)) x (val_main_cst (F := Ideal)) reducesTo_S16x1024x1024_S16x1024_d2 h_S_ (ix2 b t)
      = (Finset.univ : Finset (Fin 1024)).fold max Cert.Attn.negInf fun s => x (ix3 b t s) := by
  rw [Host.reduce_eq_fold_single (FloatOps.maximumf (F := Ideal) (φ := .f32)) x _ reducesTo_S16x1024x1024_S16x1024_d2 reduces_last h_S_]
  have hf : (x ∘ reduces_last.lift (ix2 b t)) = fun s : Fin 1024 => x (ix3 b t s) :=
    funext fun s => congrArg x (lift_last reduces_last b t s)
  exact congrArg (fun f => Finset.fold max Cert.Attn.negInf f (Finset.univ : Finset (Fin 1024))) hf

/-- Operation 9 is the fold of `max` from `−∞` over a row of scores. -/
theorem v9_at (x0 x1 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t : Fin 1024) :
    val_main_v9 (F := Ideal) x0 x1 x3 x4 x5 x6 (ix2 b t)
      = (Finset.univ : Finset (Fin 1024)).fold max Cert.Attn.negInf
          (Cert.Attn.score (Cert.Attn.proj x0 x3 x4) (Cert.Attn.proj x1 x5 x6) b t) := by
  unfold val_main_v9
  rw [reduce_max_at]
  exact congrArg (fun f => Finset.fold max Cert.Attn.negInf f (Finset.univ : Finset (Fin 1024)))
    (funext fun s => v8_at x0 x1 x3 x4 x5 x6 b t s)

/-- Operation 11 joins that fold with `−∞` once more: the row maximum. -/
theorem v11_at (x0 x1 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t : Fin 1024) :
    val_main_v11 (F := Ideal) x0 x1 x3 x4 x5 x6 (ix2 b t)
      = Cert.Attn.rowMax (Cert.Attn.score (Cert.Attn.proj x0 x3 x4) (Cert.Attn.proj x1 x5 x6) b t) := by
  rw [val_main_v11_apply, val_main_v10_apply, val_main_cst_0_apply, v9_at]
  rfl

/-! ## The softmax -/

/-- Operation 15 is the shifted exponential of a score. -/
theorem v15_at (x0 x1 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t s : Fin 1024) :
    val_main_v15 (F := Ideal) x0 x1 x3 x4 x5 x6 (ix3 b t s)
      = Cert.Attn.expShift (Cert.Attn.score (Cert.Attn.proj x0 x3 x4) (Cert.Attn.proj x1 x5 x6) b t) s := by
  rw [val_main_v15_apply, val_main_v14_apply, val_main_v13_apply, val_main_v12_apply, idx_v12_v13, v11_at, v8_at]
  rfl

/-- Operation 16 is the softmax denominator: the sum of a row's shifted exponentials, from zero. -/
theorem v16_at (x0 x1 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t : Fin 1024) :
    val_main_v16 (F := Ideal) x0 x1 x3 x4 x5 x6 (ix2 b t)
      = ∑ s' : Fin 1024, Cert.Attn.expShift (Cert.Attn.score (Cert.Attn.proj x0 x3 x4) (Cert.Attn.proj x1 x5 x6) b t) s' := by
  rw [val_main_v16_apply, val_main_cst_1_apply, Ideal.ofBits_def, Ideal.ofBits_zero_f32, zero_add]
  refine Finset.sum_congr rfl fun k _ => ?_
  rw [idx_v16, v15_at]

/-- Operation 19 is the softmax weight. -/
theorem v19_at (x0 x1 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t s : Fin 1024) :
    val_main_v19 (F := Ideal) x0 x1 x3 x4 x5 x6 (ix3 b t s) = Cert.Attn.weights x0 x1 x3 x4 x5 x6 b t s := by
  rw [val_main_v19_apply, val_main_v18_apply, val_main_v17_apply, idx_v17_v18, v15_at, v16_at]
  rfl

/-! ## The context, its scale, and the output layer -/

/-- Operation 20 is the context: a row of weights against a column of the values. -/
theorem v20_at (x0 x1 x2 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t h : Fin 1024) :
    val_main_v20 (F := Ideal) x0 x1 x2 x3 x4 x5 x6 (ix3 b t h)
      = Cert.Attn.context (Cert.Attn.weights x0 x1 x3 x4 x5 x6) x2 b t h := by
  rw [val_main_v20_apply]
  unfold Cert.Attn.context
  refine Finset.sum_congr rfl fun s _ => ?_
  rw [lidx_v20, ridx_v20, v19_at]

/-- Operation 23 divides the context by `√1024`, which is multiplying it by `2⁻⁵`. -/
theorem v23_at (x0 x1 x2 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 16) (t h : Fin 1024) :
    val_main_v23 (F := Ideal) x0 x1 x2 x3 x4 x5 x6 (ix3 b t h) = Cert.Attn.scaled x0 x1 x2 x3 x4 x5 x6 b t h := by
  rw [val_main_v23_apply, val_main_v22_apply, val_main_v21_apply, val_main_cst_2_apply, v20_at,
    Ideal.hostDivf_def, Ideal.hostUnary_sqrt_def, Ideal.ofBits_def, Cert.Attn.div_sqrt_1024]
  rfl

/-- Operation 27 is the output layer. -/
theorem v27_at (x0 x1 x2 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (b : Fin 16) (t o : Fin 1024) :
    val_main_v27 (F := Ideal) x0 x1 x2 x3 x4 x5 x6 x7 x8 (ix3 b t o)
      = Cert.Attn.outAt x0 x1 x2 x3 x4 x5 x6 x7 x8 b t o := by
  rw [val_main_v27_apply, val_main_v24_apply, val_main_v26_apply, val_main_v25_apply, idx_v25_v26, Ideal.addf_def]
  unfold Cert.Attn.outAt
  refine congrArg (· + x8 (ix1 o)) (Finset.sum_congr rfl fun h _ => ?_)
  rw [lidx_v24, ridx_v24, v23_at]

/-- THE REFERENCE COMPUTES THE SPECIFICATION: its last operation's value is the attention array, entry by entry. -/
theorem ref_result (x0 x1 x2 : (⟨S16x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Cert.ReferenceIdeal.Read.val_main_v27 (F := Ideal) x0 x1 x2 x3 x4 x5 x6 x7 x8 = Cert.Attn.result x0 x1 x2 x3 x4 x5 x6 x7 x8 := by
  funext i
  rw [eq_ix3 i]
  exact v27_at x0 x1 x2 x3 x4 x5 x6 x7 x8 (i 0) (i 1) (i 2)

end Cert.Attn.Ref

end
-- ==== Proof.Pieces.lean ====
/-
  What one run of the kernel body leaves behind, as the body's own arithmetic of what it loaded.

  The body runs in one of two ways. At the first row tile of a batch it projects the batch's keys and copies
  the batch's values into the two carried buffers, then computes the output tile from the buffers it has just
  written. At every other row tile it writes neither buffer and computes the output tile from what they held.
  Each store covers its whole buffer through the zero-offset rectangle, and each load reads a whole buffer, so
  what a buffer ends holding is exactly the stored term with the loaded contents in place of the loads.
-/
import proofs.«117021_j17970143166479_2_alg».proof.Proof.Gen.KernelIdeal.Frame
import Idealize.ShloMosaic.Lib.Pipeline.Value

set_option maxRecDepth 16384

noncomputable section

namespace Cert.Attn.Pieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 rectangle. -/
theorem hz2 : (![0, 0] : Fin 2 → Nat) = fun _ => 0 := funext fun a => by fin_cases a <;> rfl
/-- The zero offsets of a rank-3 rectangle. -/
theorem hz3 : (![0, 0, 0] : Fin 3 → Nat) = fun _ => 0 := funext fun a => by fin_cases a <;> rfl

/-- First tile of a batch: the key buffer ends holding the projection of the keys block by the key weight and bias. -/
theorem keyScratch_A (c : Dev nD) (i : grid0.Coords) (arg2 : Memref sig .tc .vmem S1x128x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x128x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (x0 : Vec F S1x128x1024 .f32) (x1 : Vec F S1x1024x1024 .f32) (x2 : Vec F S1x1024x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x128x1024) hz3, View.ld_unit_zero (S := S1x1024x1024) hz3, View.ld_unit_zero (S := S1024x1024) hz2, View.ld_unit_zero (S := S1x1024) hz2]

/-- First tile of a batch: the value buffer ends holding the values block. -/
theorem valScratch_A (c : Dev nD) (i : grid0.Coords) (arg2 : Memref sig .tc .vmem S1x128x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x128x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (x0 : Vec F S1x128x1024 .f32) (x1 : Vec F S1x1024x1024 .f32) (x2 : Vec F S1x1024x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x128x1024) hz3, View.ld_unit_zero (S := S1x1024x1024) hz3, View.ld_unit_zero (S := S1024x1024) hz2, View.ld_unit_zero (S := S1x1024) hz2]

/-- A later tile: the output tile is the body's arithmetic of the query block, the weights and biases, and
    what the two carried buffers held. -/
theorem out_B (c : Dev nD) (i : grid0.Coords) (arg2 : Memref sig .tc .vmem S1x128x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x128x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (x0 : Vec F S1x128x1024 .f32) (x1 : Vec F S1x1024x1024 .f32) (x2 : Vec F S1x1024x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) (xs0 xs1 : Vec F S1024x1024 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay1 (k0_pay4 x0 x3 x4 xs0 xs1) (k0_pay5 x7) x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S1x128x1024) hz3, View.ld_unit_zero (S := S1x1024x1024) hz3, View.ld_unit_zero (S := S1024x1024) hz2, View.ld_unit_zero (S := S1x1024) hz2]

/-- First tile of a batch: the same arithmetic, over the two buffers as this very run has just written them. -/
theorem out_A (c : Dev nD) (i : grid0.Coords) (arg2 : Memref sig .tc .vmem S1x128x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x128x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (x0 : Vec F S1x128x1024 .f32) (x1 : Vec F S1x1024x1024 .f32) (x2 : Vec F S1x1024x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (k0_pay4 x0 x3 x4 (k0_pay2 x1 x5 x6) (k0_pay3 x2)) (k0_pay5 x7) x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x128x1024) hz3, View.ld_unit_zero (S := S1x1024x1024) hz3, View.ld_unit_zero (S := S1024x1024) hz2, View.ld_unit_zero (S := S1x1024) hz2, View.readCov_unit_zero (S := S1024x1024) _ hz2]

end Cert.Attn.Pieces

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.Payloads.lean ====
/-
  The body's arithmetic read entry by entry, on the extended reals.

  A change of float format is the identity there, a product into a zero accumulator is the plain sum over the
  contracted position, a lane reduction is the sum (or the fold of max) along the row, and the keepdims column
  of a row statistic is that statistic at every entry of the row. So each stored tile, at one entry, is the
  textbook expression in the entries of what the body loaded.
-/
import proofs.«117021_j17970143166479_2_alg».proof.Proof.Gen.KernelIdeal.Skeleton
import proofs.«117021_j17970143166479_2_alg».proof.Proof.AttnSpec
import proofs.«117021_j17970143166479_2_alg».proof.Proof.LibMatmul
import proofs.«117021_j17970143166479_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Attn.Payloads

open Cert.KernelIdeal Cert.KernelIdeal.Gen Idealize.ShloMosaic Idealize.ShloMosaic.ValueIdx Cert.Attn

/-! ## The non-pointwise operations at the body's shapes -/

/-- The left operand's row coordinate is the result's. -/
theorem tl0 (i : S128x1024.Idx) (q : dot_S128x1024_S1024x1024_S128x1024_1_1_0_0_n_n.contr.Idx) : (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
/-- Its column coordinate is the contracted position. -/
theorem tl1 (i : S128x1024.Idx) (q : dot_S128x1024_S1024x1024_S128x1024_1_1_0_0_n_n.contr.Idx) : (dot_S128x1024_S1024x1024_S128x1024_1_1_0_0_n_n.lhsIdx i q 1).val = (q ⟨0, by decide⟩).val :=
  dot_S128x1024_S1024x1024_S128x1024_1_1_0_0_n_n.lhsIdx_val_of_single rfl i q
/-- The right operand's row coordinate is the result's column. -/
theorem tr0 (i : S128x1024.Idx) (q : dot_S128x1024_S1024x1024_S128x1024_1_1_0_0_n_n.contr.Idx) : (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
/-- Its column coordinate is the contracted position. -/
theorem tr1 (i : S128x1024.Idx) (q : dot_S128x1024_S1024x1024_S128x1024_1_1_0_0_n_n.contr.Idx) : (dot_S128x1024_S1024x1024_S128x1024_1_1_0_0_n_n.rhsIdx i q 1).val = (q ⟨0, by decide⟩).val :=
  dot_S128x1024_S1024x1024_S128x1024_1_1_0_0_n_n.rhsIdx_val_of_single rfl i q

/-- The query tile against the key buffer, contracting the second axis of both: entry `(r, s)` is the inner
    product of row `r` of the left operand with row `s` of the right one. -/
theorem rowsByRows_apply (q : FVec Ideal S128x1024 .bf16) (kk : FVec Ideal S1024x1024 .bf16) (r : Fin 128) (s : Fin 1024) :
    FloatOps.matmul dot_S128x1024_S1024x1024_S128x1024_1_1_0_0_n_n none q kk (constant S128x1024 .f32 0x00000000#32) (ix2 r s)
      = ∑ o : Fin 1024, q (ix2 r o) * kk (ix2 s o) := by
  rw [Ideal.matmul_constant_zero_apply, ← Equiv.sum_comp (ValueIdx.contrEquiv1 dot_S128x1024_S1024x1024_S128x1024_1_1_0_0_n_n 1024 rfl rfl).symm]
  refine Finset.sum_congr rfl fun o _ => ?_
  have hk := ValueIdx.contrEquiv1_symm_val dot_S128x1024_S1024x1024_S128x1024_1_1_0_0_n_n 1024 rfl rfl o
  have el : dot_S128x1024_S1024x1024_S128x1024_1_1_0_0_n_n.lhsIdx (ix2 r s) ((ValueIdx.contrEquiv1 dot_S128x1024_S1024x1024_S128x1024_1_1_0_0_n_n 1024 rfl rfl).symm o) = ix2 r o := funext fun a => Fin.ext (by
    match a with
    | ⟨0, _⟩ => exact tl0 _ _
    | ⟨1, _⟩ => exact (tl1 _ _).trans hk)
  have er : dot_S128x1024_S1024x1024_S128x1024_1_1_0_0_n_n.rhsIdx (ix2 r s) ((ValueIdx.contrEquiv1 dot_S128x1024_S1024x1024_S128x1024_1_1_0_0_n_n 1024 rfl rfl).symm o) = ix2 s o := funext fun a => Fin.ext (by
    match a with
    | ⟨0, _⟩ => exact tr0 _ _
    | ⟨1, _⟩ => exact (tr1 _ _).trans hk)
  rw [el, er]

/-- A lane sum of a tile: row `r`'s sum. -/
theorem laneSum_apply (v : FVec Ideal S128x1024 .f32) (h : S128x1024.Reduces [1] S128) (hφ : FTy.f32 = FTy.f32 ∨ FTy.f32 = FTy.bf16)
    (hacc : (0x00000000#32 : BitVec 32) = 0x00000000#32) (r : Fin 128) :
    multiReduction .add [1] S128 v 0x00000000#32 h hφ hacc (ix1 r) = ∑ s : Fin 1024, v (ix2 r s) := by
  refine (Ideal.multiReduction_add_single v 0x00000000#32 h hφ hacc (ix1 r)).trans ?_
  refine Finset.sum_congr rfl fun s _ => congrArg v ?_
  exact funext fun a => Fin.ext (by match a with | ⟨0, _⟩ => rfl | ⟨1, _⟩ => rfl)

/-- A lane maximum of a tile: the fold of max along row `r`, from `−∞`. -/
theorem laneMax_apply (v : FVec Ideal S128x1024 .f32) (h : S128x1024.Reduces [1] S128) (hφ : FTy.f32 = FTy.f32 ∨ FTy.f32 = FTy.bf16)
    (hacc : (0xFF800000#32 : BitVec 32) = 0xFF800000#32) (r : Fin 128) :
    multiReduction .maximumf [1] S128 v 0xFF800000#32 h hφ hacc (ix1 r)
      = (Finset.univ : Finset (Fin 1024)).fold max negInf (fun s => v (ix2 r s)) := by
  refine (Ideal.multiReduction_maximumf_single v 0xFF800000#32 h hφ hacc (ix1 r)).trans ?_
  refine congrArg (fun f => (Finset.univ : Finset (Fin 1024)).fold max negInf f) ?_
  exact funext fun s => congrArg v (funext fun a => Fin.ext (by match a with | ⟨0, _⟩ => rfl | ⟨1, _⟩ => rfl))

/-! ## The stored tiles at an entry -/

/-- The value buffer is the values block with its unit axis dropped. -/
theorem valCopy_apply (v57 : Vec Ideal S1x1024x1024 .f32) (s h : Fin 1024) :
    k0_pay3 v57 (ix2 s h) = v57 (ix3 (0 : Fin 1) s h) := by
  unfold k0_pay3
  simp only [shapeCast_self, truncf_apply, shapeCast_1ab_ab_apply]

/-- The key buffer: row `s` of the keys block against column `o` of the transposed weight, plus the bias. -/
theorem keyProj_apply (v43 : Vec Ideal S1x1024x1024 .f32) (v46 : Vec Ideal S1024x1024 .bf16) (v49 : Vec Ideal S1x1024 .f32) (s o : Fin 1024) :
    k0_pay2 v43 v46 v49 (ix2 s o)
      = (∑ h : Fin 1024, v43 (ix3 (0 : Fin 1) s h) * v46 (ix2 h o)) + v49 (ix2 (0 : Fin 1) o) := by
  unfold k0_pay2
  simp only [shapeCast_self, truncf_apply, addf_apply, matmul, matmul_zero_ix2 dot_S1024x1024_S1024x1024_S1024x1024_1_0_0_1_n_n rfl rfl rfl rfl rfl rfl,
    broadcastTo_1b_ab_apply, shapeCast_1ab_ab_apply]

/-- The output tile: row `r` of the scaled context against column `o` of the transposed output weight, plus the bias. -/
theorem outTile_apply (v32 : FVec Ideal S128x1024 .bf16) (v34 : FVec Ideal S1024x1024 .bf16) (v36 : Vec Ideal S1x1024 .f32)
    (u : Fin 1) (r : Fin 128) (o : Fin 1024) :
    k0_pay1 v32 v34 v36 (ix3 u r o) = (∑ h : Fin 1024, v32 (ix2 r h) * v34 (ix2 h o)) + v36 (ix2 (0 : Fin 1) o) := by
  unfold k0_pay1
  simp only [shapeCast_self, shapeCast_ab_1ab_apply, addf_apply, matmul, matmul_zero_ix2 dot_S128x1024_S1024x1024_S128x1024_1_0_0_1_n_n rfl rfl rfl rfl rfl rfl,
    broadcastTo_1b_ab_apply]

/-- The output weight is loaded as it is. -/
theorem woLoad (v33 : Vec Ideal S1024x1024 .bf16) : k0_pay5 v33 = v33 := shapeCast_self _ _

/-! ## The context tile, in three stages

The context payload is a score tile, a row-wise shifted softmax of it, and the weighted sum of the value buffer's
rows scaled by `2⁻⁵`. The three stages are restated here over any float instance, exactly as the body spells
them, so that the payload is their composition by unfolding; each is then read at an entry at the extended reals. -/

section Stages
variable {F : FTy → Type} [FloatOps F]

/-- The score tile: the projected query tile against the rows of the key buffer. -/
def scorePart (v3 : Vec F S1x128x1024 .f32) (v6 : Vec F S1024x1024 .bf16) (v9 : Vec F S1x1024 .f32)
    (v14 : Vec F S1024x1024 .bf16) : FVec F S128x1024 .f32 :=
  matmul dot_S128x1024_S1024x1024_S128x1024_1_1_0_0_n_n none
    (truncf .bf16 (addf (matmul dot_S128x1024_S1024x1024_S128x1024_1_0_0_1_n_n none
        (truncf .bf16 (shapeCast S128x1024 v3 shapeCasts_S1x128x1024_S128x1024) bitsLt_bf16_f32)
        (shapeCast S1024x1024 v6 shapeCasts_S1024x1024_S1024x1024) (constant S128x1024 .f32 0x00000000#32))
      (broadcastTo S128x1024 (shapeCast S1x1024 v9 shapeCasts_S1x1024_S1x1024) broadcasts_S1x1024_S128x1024)) bitsLt_bf16_f32)
    v14 (constant S128x1024 .f32 0x00000000#32)

/-- The row maximum joined with `−∞`, as a vector over the rows. -/
def maxPart (v15 : FVec F S128x1024 .f32) : FVec F S128 .f32 :=
  maximumf (broadcast S128 (Scalar.ofBits .f32 0xFF800000#32))
    (multiReduction .maximumf [1] S128 v15 0xFF800000#32 reduces_S128x1024_S128 (.inl rfl) rfl)

/-- The shifted exponentials of a tile. -/
def expPart (v15 : FVec F S128x1024 .f32) : FVec F S128x1024 .f32 :=
  exp (subf v15 (broadcastTo S128x1024 (shapeCast S128x1 (maxPart v15) shapeCasts_S128_S128x1) broadcasts_S128x1_S128x1024))

/-- The row-wise softmax of a tile. -/
def softPart (v15 : FVec F S128x1024 .f32) : FVec F S128x1024 .f32 :=
  divf (expPart v15)
    (broadcastTo S128x1024 (shapeCast S128x1
      (multiReduction .add [1] S128 (expPart v15) 0x00000000#32 reduces_S128x1024_S128 (.inl rfl) rfl)
      shapeCasts_S128_S128x1) broadcasts_S128x1_S128x1024)

/-- The weights against the value buffer, scaled. -/
def ctxPart (w : FVec F S128x1024 .f32) (v28 : Vec F S1024x1024 .bf16) : FVec F S128x1024 .bf16 :=
  truncf .bf16 (mulf (matmul dot_S128x1024_S1024x1024_S128x1024_1_0_0_1_n_n none (truncf .bf16 w bitsLt_bf16_f32) v28 (constant S128x1024 .f32 0x00000000#32))
    (broadcast S128x1024 (Scalar.ofBits .f32 0x3D000000#32))) bitsLt_bf16_f32

/-- The context payload is the three stages composed. -/
theorem pay4_split (v3 : Vec F S1x128x1024 .f32) (v6 : Vec F S1024x1024 .bf16) (v9 : Vec F S1x1024 .f32)
    (v14 v28 : Vec F S1024x1024 .bf16) :
    k0_pay4 v3 v6 v9 v14 v28 = ctxPart (softPart (scorePart v3 v6 v9 v14)) v28 := rfl

end Stages

/-- A pointwise exponential at an entry. -/
theorem exp_apply {s : Shape} {φ : FTy} (x : FVec Ideal s φ) (i : s.Idx) : exp x i = Ideal.exp (x i) := rfl

/-- The projected query tile: row `r` of the query block against column `o` of the transposed weight, plus the bias. -/
def qTile (v3 : Vec Ideal S1x128x1024 .f32) (v6 : Vec Ideal S1024x1024 .bf16) (v9 : Vec Ideal S1x1024 .f32)
    (r : Fin 128) (o : Fin 1024) : EReal :=
  (∑ h : Fin 1024, v3 (ix3 (0 : Fin 1) r h) * v6 (ix2 h o)) + v9 (ix2 (0 : Fin 1) o)

/-- The score tile: the projected query row `r` against row `s` of the key buffer. -/
def scoreTile (v3 : Vec Ideal S1x128x1024 .f32) (v6 : Vec Ideal S1024x1024 .bf16) (v9 : Vec Ideal S1x1024 .f32)
    (v14 : Vec Ideal S1024x1024 .bf16) (r : Fin 128) (s : Fin 1024) : EReal :=
  ∑ o : Fin 1024, qTile v3 v6 v9 r o * v14 (ix2 s o)

theorem scorePart_apply (v3 : Vec Ideal S1x128x1024 .f32) (v6 : Vec Ideal S1024x1024 .bf16) (v9 : Vec Ideal S1x1024 .f32)
    (v14 : Vec Ideal S1024x1024 .bf16) (r : Fin 128) (s : Fin 1024) :
    scorePart v3 v6 v9 v14 (ix2 r s) = scoreTile v3 v6 v9 v14 r s := by
  unfold scorePart scoreTile qTile
  simp only [matmul, rowsByRows_apply, truncf_apply, addf_apply, matmul_zero_ix2 dot_S128x1024_S1024x1024_S128x1024_1_0_0_1_n_n rfl rfl rfl rfl rfl rfl,
    broadcastTo_1b_ab_apply, shapeCast_self, shapeCast_1ab_ab_apply]

theorem maxPart_apply (v15 : FVec Ideal S128x1024 .f32) (r : Fin 128) :
    maxPart v15 (ix1 r) = rowMax (fun s => v15 (ix2 r s)) := by
  unfold maxPart rowMax
  simp only [maximumf_apply, broadcast_apply, Ideal.ofBits_def]
  rw [laneMax_apply]

theorem expPart_apply (v15 : FVec Ideal S128x1024 .f32) (r : Fin 128) (s : Fin 1024) :
    expPart v15 (ix2 r s) = expShift (fun s => v15 (ix2 r s)) s := by
  unfold expPart expShift
  simp only [exp_apply, subf_apply, broadcastTo_column_apply, maxPart_apply]

theorem softPart_apply (v15 : FVec Ideal S128x1024 .f32) (r : Fin 128) (s : Fin 1024) :
    softPart v15 (ix2 r s) = soft (fun s => v15 (ix2 r s)) s := by
  unfold softPart soft
  simp only [divf_apply, broadcastTo_column_apply, expPart_apply]
  rw [laneSum_apply]
  simp only [expPart_apply]

theorem ctxPart_apply (w : FVec Ideal S128x1024 .f32) (v28 : Vec Ideal S1024x1024 .bf16) (r : Fin 128) (h : Fin 1024) :
    ctxPart w v28 (ix2 r h) = (∑ s : Fin 1024, w (ix2 r s) * v28 (ix2 s h)) * scale := by
  unfold ctxPart
  simp only [truncf_apply, mulf_apply, broadcast_apply, matmul, matmul_zero_ix2 dot_S128x1024_S1024x1024_S128x1024_1_0_0_1_n_n rfl rfl rfl rfl rfl rfl, Ideal.ofBits_def]

/-- The scaled context tile: the softmax weights of score row `r` against column `h` of the value buffer, times `2⁻⁵`. -/
theorem ctxTile_apply (v3 : Vec Ideal S1x128x1024 .f32) (v6 : Vec Ideal S1024x1024 .bf16) (v9 : Vec Ideal S1x1024 .f32)
    (v14 v28 : Vec Ideal S1024x1024 .bf16) (r : Fin 128) (h : Fin 1024) :
    k0_pay4 v3 v6 v9 v14 v28 (ix2 r h)
      = (∑ s : Fin 1024, soft (scoreTile v3 v6 v9 v14 r) s * v28 (ix2 s h)) * scale := by
  rw [pay4_split, ctxPart_apply]
  simp only [softPart_apply, scorePart_apply]

end Cert.Attn.Payloads

end
-- ==== Proof.Blocks.lean ====
/-
  The kernel's windows: which entries of the argument arrays each staged block holds.

  The kernel runs over 16 × 8 grid points, the second coordinate fastest: point `t` works on batch `t / 8` and, within
  it, on the block of 128 rows starting at row `128 · (t mod 8)`. The query and the result are staged by such blocks of
  rows; the keys and the values by whole batches; the three weights (transposed beforehand) and the three biases (laid
  out as one row beforehand) whole, at every point. A block's entry at a coordinate inside the block is the array's
  entry at (block index × block size + that coordinate) on each axis; the block indices are decided once over the 128
  points, and the rest is arithmetic. The result's blocks cover its array: index `(b, r, o)` lies in the block of
  point `8 · b + r / 128`, and every point writes its block back.
-/
import proofs.«117021_j17970143166479_2_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Attn.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The batch a grid point works on: points run over 16 batches of 8 row blocks, the row block fastest. -/
def batchOf (t : Fin cfg0.N) : Fin 16 := ⟨t.val / 8, by have h := t.isLt; have hN : cfg0.N = 128 := N_0; omega⟩
/-- Row `r` of a grid point's block of 128 rows, as a row of the array. -/
def rowOf (t : Fin cfg0.N) (r : Fin 128) : Fin 1024 := ⟨128 * (t.val % 8) + r.val, by have := r.isLt; omega⟩

/-! ## The index maps, decided over the grid -/

/-- The query window's block index at a point: its batch, its row block, and the one column block. -/
theorem idx_w0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
/-- The keys window's block index: the point's batch, whole. -/
theorem idx_w1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
/-- The values window's block index: the point's batch, whole. -/
theorem idx_w2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)
/-- The result window's block index: as the query's. -/
theorem idx_w9 : ∀ t : Fin cfg0.N, win0_9.index t (0 : Fin 3) = t.val / 8 ∧ win0_9.index t (1 : Fin 3) = t.val % 8
    ∧ win0_9.index t (2 : Fin 3) = 0 :=
  (by decide +kernel : ∀ t : Fin grid0.N, _)

/-! ## The three batched operands -/

/-- Entry `(u, r, h)` of the query block at a point is entry `(batch, row, h)` of the array. -/
theorem emb_w0 (t : Fin cfg0.N) (u : Fin 1) (r : Fin 128) (h : Fin 1024) :
    ((cfg0.win 0).blk t).view.emb (ix3 u r h) = (ix3 (batchOf t) (rowOf t r) h : S16x1024x1024.Idx) := by
  obtain ⟨e0, e1, e2⟩ := idx_w0 t
  funext a; apply Fin.ext
  match a with
  | ⟨0, _⟩ => show win0_0.index t (0 : Fin 3) * 1 + 1 * u.val = t.val / 8; have := u.isLt; omega
  | ⟨1, _⟩ => show win0_0.index t (1 : Fin 3) * 128 + 1 * r.val = 128 * (t.val % 8) + r.val; omega
  | ⟨2, _⟩ => show win0_0.index t (2 : Fin 3) * 1024 + 1 * h.val = h.val; omega

/-- The query block holds the point's 128 rows of its batch. -/
theorem queryBlock (t : Fin cfg0.N) (u : Fin 1) (r : Fin 128) (h : Fin 1024) :
    iblk m c 0 t (ix3 u r h) = m ((c : Thread nD τ).loc main_arg0) (ix3 (batchOf t) (rowOf t r) h) := by
  unfold iblk
  show V m c main_arg0 (((cfg0.win 0).blk t).view.emb (ix3 u r h)) = _
  rw [emb_w0, V_main_arg0]

theorem emb_w1 (t : Fin cfg0.N) (u : Fin 1) (s h : Fin 1024) :
    ((cfg0.win 1).blk t).view.emb (ix3 u s h) = (ix3 (batchOf t) s h : S16x1024x1024.Idx) := by
  obtain ⟨e0, e1, e2⟩ := idx_w1 t
  funext a; apply Fin.ext
  match a with
  | ⟨0, _⟩ => show win0_1.index t (0 : Fin 3) * 1 + 1 * u.val = t.val / 8; have := u.isLt; omega
  | ⟨1, _⟩ => show win0_1.index t (1 : Fin 3) * 1024 + 1 * s.val = s.val; omega
  | ⟨2, _⟩ => show win0_1.index t (2 : Fin 3) * 1024 + 1 * h.val = h.val; omega

/-- The keys block holds the whole of the point's batch. -/
theorem keysBlock (t : Fin cfg0.N) (u : Fin 1) (s h : Fin 1024) :
    iblk m c 1 t (ix3 u s h) = m ((c : Thread nD τ).loc main_arg1) (ix3 (batchOf t) s h) := by
  unfold iblk
  show V m c main_arg1 (((cfg0.win 1).blk t).view.emb (ix3 u s h)) = _
  rw [emb_w1, V_main_arg1]

theorem emb_w2 (t : Fin cfg0.N) (u : Fin 1) (s h : Fin 1024) :
    ((cfg0.win 2).blk t).view.emb (ix3 u s h) = (ix3 (batchOf t) s h : S16x1024x1024.Idx) := by
  obtain ⟨e0, e1, e2⟩ := idx_w2 t
  funext a; apply Fin.ext
  match a with
  | ⟨0, _⟩ => show win0_2.index t (0 : Fin 3) * 1 + 1 * u.val = t.val / 8; have := u.isLt; omega
  | ⟨1, _⟩ => show win0_2.index t (1 : Fin 3) * 1024 + 1 * s.val = s.val; omega
  | ⟨2, _⟩ => show win0_2.index t (2 : Fin 3) * 1024 + 1 * h.val = h.val; omega

/-- The values block holds the whole of the point's batch. -/
theorem valuesBlock (t : Fin cfg0.N) (u : Fin 1) (s h : Fin 1024) :
    iblk m c 2 t (ix3 u s h) = m ((c : Thread nD τ).loc main_arg2) (ix3 (batchOf t) s h) := by
  unfold iblk
  show V m c main_arg2 (((cfg0.win 2).blk t).view.emb (ix3 u s h)) = _
  rw [emb_w2, V_main_arg2]

/-! ## The result window: where a point's block lies, and that the blocks cover the array -/

/-- Entry `(u, r, o)` of the result block at a point is entry `(batch, row, o)` of the array. -/
theorem outEmb (t : Fin cfg0.N) (u : Fin 1) (r : Fin 128) (o : Fin 1024) :
    ((cfg0.win 9).blk t).view.emb (ix3 u r o) = (ix3 (batchOf t) (rowOf t r) o : S16x1024x1024.Idx) := by
  obtain ⟨e0, e1, e2⟩ := idx_w9 t
  funext a; apply Fin.ext
  match a with
  | ⟨0, _⟩ => show win0_9.index t (0 : Fin 3) * 1 + 1 * u.val = t.val / 8; have := u.isLt; omega
  | ⟨1, _⟩ => show win0_9.index t (1 : Fin 3) * 128 + 1 * r.val = 128 * (t.val % 8) + r.val; omega
  | ⟨2, _⟩ => show win0_9.index t (2 : Fin 3) * 1024 + 1 * o.val = o.val; omega

/-- An index of the array is in a point's result block iff each coordinate is in the block's range on its axis. -/
theorem mem_blk9 (t : Fin cfg0.N) (i : S16x1024x1024.Idx) :
    i ∈ ((cfg0.win 9).blk t).view.set ↔ ∀ a : Fin 3, win0_9.index t a * S1x128x1024.size a ≤ (i a).val
      ∧ (i a).val < win0_9.index t a * S1x128x1024.size a + S1x128x1024.size a := by
  show i ∈ ((View.whole main_v9).slice (win0_9.rect t)).set ↔ _
  rw [View.set_slice_whole, Rect.mem_set_unit]
  exact Iff.rfl

/-- Every index of the result array lies in the block of the point at its batch and its row's block of 128, and
    every point writes its block back. -/
theorem outCover : ∀ i : S16x1024x1024.Idx, ∃ t : Fin cfg0.N, (cfg0.win 9).flush t = true ∧ i ∈ ((cfg0.win 9).blk t).view.set := by
  intro i
  have hi0 : (i 0).val < 16 := (i 0).isLt
  have hi1 : (i 1).val < 1024 := (i 1).isLt
  have hi2 : (i 2).val < 1024 := (i 2).isLt
  have hN : cfg0.N = 128 := N_0
  obtain ⟨t, ht⟩ : ∃ t : Fin cfg0.N, t.val = 8 * (i 0).val + (i 1).val / 128 := ⟨⟨_, by omega⟩, rfl⟩
  refine ⟨t, flush0_9 t, ?_⟩
  rw [mem_blk9]
  obtain ⟨e0, e1, e2⟩ := idx_w9 t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 128 ≤ (i 1).val ∧ (i 1).val < win0_9.index t (1 : Fin 3) * 128 + 128; omega
  | ⟨2, _⟩ => show win0_9.index t (2 : Fin 3) * 1024 ≤ (i 2).val ∧ (i 2).val < win0_9.index t (2 : Fin 3) * 1024 + 1024; omega

/-! ## The weights and the biases

Before the kernel runs, each weight is transposed and each bias is laid out as one row; the kernel's windows on those
arrays are the whole arrays at every point. -/

theorem idx_w3 : ∀ t : Fin cfg0.N, win0_3.index t (0 : Fin 2) = 0 ∧ win0_3.index t (1 : Fin 2) = 0 :=
  (by decide +kernel : ∀ t : Fin grid0.N, _)

theorem emb_w3 (t : Fin cfg0.N) (h o : Fin 1024) :
    ((cfg0.win 3).blk t).view.emb (ix2 h o) = (ix2 h o : S1024x1024.Idx) := by
  obtain ⟨e0, e1⟩ := idx_w3 t
  funext a; apply Fin.ext
  match a with
  | ⟨0, _⟩ => show win0_3.index t (0 : Fin 2) * 1024 + 1 * h.val = h.val; omega
  | ⟨1, _⟩ => show win0_3.index t (1 : Fin 2) * 1024 + 1 * o.val = o.val; omega

/-- The array the region finds there: the query weight, transposed (the narrowing of the format is the identity on extended reals). -/
theorem v1_eq : (V m c main_v1 : S1024x1024.Idx → EReal)
    = truncf (F := Ideal) .bf16 (transpose S1024x1024 [1, 0] (m ((c : Thread nD τ).loc main_arg3)) transposes_S1024x1024_S1024x1024_1_0) bitsLt_bf16_f32 := by
  dsimp only [Gen.V, Gen.hostOps0]; after_results <;> rfl

/-- The block is the whole transposed weight: entry `(h, o)` is entry `(o, h)` of the query weight. -/
theorem wqBlock (t : Fin cfg0.N) (h o : Fin 1024) :
    iblk m c 3 t (ix2 h o) = m ((c : Thread nD τ).loc main_arg3) (ix2 o h) := by
  unfold iblk
  show V m c main_v1 (((cfg0.win 3).blk t).view.emb (ix2 h o)) = _
  rw [emb_w3]
  refine (congrFun (v1_eq m c) (ix2 h o)).trans ?_
  rw [truncf_apply, transpose_ix2_apply]

theorem idx_w4 : ∀ t : Fin cfg0.N, win0_4.index t (0 : Fin 2) = 0 ∧ win0_4.index t (1 : Fin 2) = 0 :=
  (by decide +kernel : ∀ t : Fin grid0.N, _)

theorem emb_w4 (t : Fin cfg0.N) (u : Fin 1) (o : Fin 1024) :
    ((cfg0.win 4).blk t).view.emb (ix2 u o) = (ix2 u o : S1x1024.Idx) := by
  obtain ⟨e0, e1⟩ := idx_w4 t
  funext a; apply Fin.ext
  match a with
  | ⟨0, _⟩ => show win0_4.index t (0 : Fin 2) * 1 + 1 * u.val = u.val; omega
  | ⟨1, _⟩ => show win0_4.index t (1 : Fin 2) * 1024 + 1 * o.val = o.val; omega

/-- The array the region finds there: the query bias as one row. -/
theorem v6_eq : (V m c main_v6 : S1x1024.Idx → EReal)
    = shapeCast S1x1024 (m ((c : Thread nD τ).loc main_arg4)) shapeCasts_S1024_S1x1024 := by
  dsimp only [Gen.V, Gen.hostOps0]; after_results <;> rfl

/-- The block is that row: entry `(u, o)` is entry `o` of the query bias. -/
theorem bqBlock (t : Fin cfg0.N) (u : Fin 1) (o : Fin 1024) :
    iblk m c 4 t (ix2 u o) = m ((c : Thread nD τ).loc main_arg4) (ix1 o) := by
  unfold iblk
  show V m c main_v6 (((cfg0.win 4).blk t).view.emb (ix2 u o)) = _
  rw [emb_w4]
  refine (congrFun (v6_eq m c) (ix2 u o)).trans ?_
  rw [shapeCast_a_1a_apply]

theorem idx_w5 : ∀ t : Fin cfg0.N, win0_5.index t (0 : Fin 2) = 0 ∧ win0_5.index t (1 : Fin 2) = 0 :=
  (by decide +kernel : ∀ t : Fin grid0.N, _)

theorem emb_w5 (t : Fin cfg0.N) (h o : Fin 1024) :
    ((cfg0.win 5).blk t).view.emb (ix2 h o) = (ix2 h o : S1024x1024.Idx) := by
  obtain ⟨e0, e1⟩ := idx_w5 t
  funext a; apply Fin.ext
  match a with
  | ⟨0, _⟩ => show win0_5.index t (0 : Fin 2) * 1024 + 1 * h.val = h.val; omega
  | ⟨1, _⟩ => show win0_5.index t (1 : Fin 2) * 1024 + 1 * o.val = o.val; omega

/-- The array the region finds there: the key weight, transposed (the narrowing of the format is the identity on extended reals). -/
theorem v3_eq : (V m c main_v3 : S1024x1024.Idx → EReal)
    = truncf (F := Ideal) .bf16 (transpose S1024x1024 [1, 0] (m ((c : Thread nD τ).loc main_arg5)) transposes_S1024x1024_S1024x1024_1_0) bitsLt_bf16_f32 := by
  dsimp only [Gen.V, Gen.hostOps0]; after_results <;> rfl

/-- The block is the whole transposed weight: entry `(h, o)` is entry `(o, h)` of the key weight. -/
theorem wkBlock (t : Fin cfg0.N) (h o : Fin 1024) :
    iblk m c 5 t (ix2 h o) = m ((c : Thread nD τ).loc main_arg5) (ix2 o h) := by
  unfold iblk
  show V m c main_v3 (((cfg0.win 5).blk t).view.emb (ix2 h o)) = _
  rw [emb_w5]
  refine (congrFun (v3_eq m c) (ix2 h o)).trans ?_
  rw [truncf_apply, transpose_ix2_apply]

theorem idx_w6 : ∀ t : Fin cfg0.N, win0_6.index t (0 : Fin 2) = 0 ∧ win0_6.index t (1 : Fin 2) = 0 :=
  (by decide +kernel : ∀ t : Fin grid0.N, _)

theorem emb_w6 (t : Fin cfg0.N) (u : Fin 1) (o : Fin 1024) :
    ((cfg0.win 6).blk t).view.emb (ix2 u o) = (ix2 u o : S1x1024.Idx) := by
  obtain ⟨e0, e1⟩ := idx_w6 t
  funext a; apply Fin.ext
  match a with
  | ⟨0, _⟩ => show win0_6.index t (0 : Fin 2) * 1 + 1 * u.val = u.val; omega
  | ⟨1, _⟩ => show win0_6.index t (1 : Fin 2) * 1024 + 1 * o.val = o.val; omega

/-- The array the region finds there: the key bias as one row. -/
theorem v7_eq : (V m c main_v7 : S1x1024.Idx → EReal)
    = shapeCast S1x1024 (m ((c : Thread nD τ).loc main_arg6)) shapeCasts_S1024_S1x1024 := by
  dsimp only [Gen.V, Gen.hostOps0]; after_results <;> rfl

/-- The block is that row: entry `(u, o)` is entry `o` of the key bias. -/
theorem bkBlock (t : Fin cfg0.N) (u : Fin 1) (o : Fin 1024) :
    iblk m c 6 t (ix2 u o) = m ((c : Thread nD τ).loc main_arg6) (ix1 o) := by
  unfold iblk
  show V m c main_v7 (((cfg0.win 6).blk t).view.emb (ix2 u o)) = _
  rw [emb_w6]
  refine (congrFun (v7_eq m c) (ix2 u o)).trans ?_
  rw [shapeCast_a_1a_apply]

theorem idx_w7 : ∀ t : Fin cfg0.N, win0_7.index t (0 : Fin 2) = 0 ∧ win0_7.index t (1 : Fin 2) = 0 :=
  (by decide +kernel : ∀ t : Fin grid0.N, _)

theorem emb_w7 (t : Fin cfg0.N) (h o : Fin 1024) :
    ((cfg0.win 7).blk t).view.emb (ix2 h o) = (ix2 h o : S1024x1024.Idx) := by
  obtain ⟨e0, e1⟩ := idx_w7 t
  funext a; apply Fin.ext
  match a with
  | ⟨0, _⟩ => show win0_7.index t (0 : Fin 2) * 1024 + 1 * h.val = h.val; omega
  | ⟨1, _⟩ => show win0_7.index t (1 : Fin 2) * 1024 + 1 * o.val = o.val; omega

/-- The array the region finds there: the output weight, transposed (the narrowing of the format is the identity on extended reals). -/
theorem v5_eq : (V m c main_v5 : S1024x1024.Idx → EReal)
    = truncf (F := Ideal) .bf16 (transpose S1024x1024 [1, 0] (m ((c : Thread nD τ).loc main_arg7)) transposes_S1024x1024_S1024x1024_1_0) bitsLt_bf16_f32 := by
  dsimp only [Gen.V, Gen.hostOps0]; after_results <;> rfl

/-- The block is the whole transposed weight: entry `(h, o)` is entry `(o, h)` of the output weight. -/
theorem woBlock (t : Fin cfg0.N) (h o : Fin 1024) :
    iblk m c 7 t (ix2 h o) = m ((c : Thread nD τ).loc main_arg7) (ix2 o h) := by
  unfold iblk
  show V m c main_v5 (((cfg0.win 7).blk t).view.emb (ix2 h o)) = _
  rw [emb_w7]
  refine (congrFun (v5_eq m c) (ix2 h o)).trans ?_
  rw [truncf_apply, transpose_ix2_apply]

theorem idx_w8 : ∀ t : Fin cfg0.N, win0_8.index t (0 : Fin 2) = 0 ∧ win0_8.index t (1 : Fin 2) = 0 :=
  (by decide +kernel : ∀ t : Fin grid0.N, _)

theorem emb_w8 (t : Fin cfg0.N) (u : Fin 1) (o : Fin 1024) :
    ((cfg0.win 8).blk t).view.emb (ix2 u o) = (ix2 u o : S1x1024.Idx) := by
  obtain ⟨e0, e1⟩ := idx_w8 t
  funext a; apply Fin.ext
  match a with
  | ⟨0, _⟩ => show win0_8.index t (0 : Fin 2) * 1 + 1 * u.val = u.val; omega
  | ⟨1, _⟩ => show win0_8.index t (1 : Fin 2) * 1024 + 1 * o.val = o.val; omega

/-- The array the region finds there: the output bias as one row. -/
theorem v8_eq : (V m c main_v8 : S1x1024.Idx → EReal)
    = shapeCast S1x1024 (m ((c : Thread nD τ).loc main_arg8)) shapeCasts_S1024_S1x1024 := by
  dsimp only [Gen.V, Gen.hostOps0]; after_results <;> rfl

/-- The block is that row: entry `(u, o)` is entry `o` of the output bias. -/
theorem boBlock (t : Fin cfg0.N) (u : Fin 1) (o : Fin 1024) :
    iblk m c 8 t (ix2 u o) = m ((c : Thread nD τ).loc main_arg8) (ix1 o) := by
  unfold iblk
  show V m c main_v8 (((cfg0.win 8).blk t).view.emb (ix2 u o)) = _
  rw [emb_w8]
  refine (congrFun (v8_eq m c) (ix2 u o)).trans ?_
  rw [shapeCast_a_1a_apply]

end Cert.Attn.Blocks

end
-- ==== Proof.KernelValue.lean ====
/-
  What the kernel's result array holds after the run.

  The grid has 16 x 8 points; point `t` works on batch `t / 8` and on the rows `128 (t % 8) …` of it. The two
  carried buffers are written at the first point of a batch and only read afterwards, so after EVERY point of
  batch `b` they hold the projected keys and the values of batch `b` (an induction over the points: a later
  point of a batch hands on what the point before left, and `(t − 1) / 8 = t / 8` there). Hence the tile each
  point writes back is the attention result at that batch and those rows, and the 128 tiles fill the array.
-/
import proofs.«117021_j17970143166479_2_alg».proof.Proof.Gen.KernelIdeal.Value
import proofs.«117021_j17970143166479_2_alg».proof.Proof.AttnSpec
import proofs.«117021_j17970143166479_2_alg».proof.Proof.Pieces
import proofs.«117021_j17970143166479_2_alg».proof.Proof.Payloads
import proofs.«117021_j17970143166479_2_alg».proof.Proof.Blocks

set_option maxRecDepth 16384

noncomputable section

open scoped BigOperators

namespace Cert.Attn.Kernel

open Cert.KernelIdeal Cert.KernelIdeal.Gen Idealize.ShloMosaic Idealize.ShloMosaic.TcCoe Idealize.ShloMosaic.ValueIdx Idealize.SL.Sem
open Cert.Attn Cert.Attn.Blocks Cert.Attn.Pieces Cert.Attn.Payloads

variable (m : (ℓ : Loc nD τ sig) → Buf (Elt Ideal) ℓ) (ρ : Dev nD → PrngReg) (c : Dev nD)

/-- The projected keys of batch `b`: what the key buffer holds while the grid is in that batch. -/
def keyBuf (b : Fin 16) : Vec Ideal S1024x1024 .bf16 := fun j =>
  proj (m ((c : Thread nD τ).loc main_arg1)) (m ((c : Thread nD τ).loc main_arg5)) (m ((c : Thread nD τ).loc main_arg6)) b (show Fin 1024 from j 0) (show Fin 1024 from j 1)

/-- The values of batch `b`: what the value buffer holds while the grid is in that batch. -/
def valBuf (b : Fin 16) : Vec Ideal S1024x1024 .bf16 := fun j =>
  (m ((c : Thread nD τ).loc main_arg2)) (ix3 b (show Fin 1024 from j 0) (show Fin 1024 from j 1))

theorem keyBuf_ix2 (b : Fin 16) (s o : Fin 1024) : keyBuf m c b (ix2 s o) = proj (m ((c : Thread nD τ).loc main_arg1)) (m ((c : Thread nD τ).loc main_arg5)) (m ((c : Thread nD τ).loc main_arg6)) b s o := rfl
theorem valBuf_ix2 (b : Fin 16) (s h : Fin 1024) : valBuf m c b (ix2 s h) = (m ((c : Thread nD τ).loc main_arg2)) (ix3 b s h) := rfl

/-- The projection a first point stores is the projected keys of its batch. -/
theorem keyStore_eq (t : Fin cfg0.N) :
    k0_pay2 (iblk m c 1 t) (iblk m c 5 t) (iblk m c 6 t) = keyBuf m c (batchOf t) := by
  funext j
  obtain ⟨s, o, rfl⟩ : ∃ (s o : Fin 1024), j = ix2 s o := ⟨j 0, j 1, eq_ix2 j⟩
  refine (keyProj_apply _ _ _ s o).trans ?_
  rw [keyBuf_ix2]
  unfold proj
  simp only [keysBlock, wkBlock, bkBlock]

/-- The copy a first point stores is the values of its batch. -/
theorem valStore_eq (t : Fin cfg0.N) : k0_pay3 (iblk m c 2 t) = valBuf m c (batchOf t) := by
  funext j
  obtain ⟨s, h, rfl⟩ : ∃ (s h : Fin 1024), j = ix2 s h := ⟨j 0, j 1, eq_ix2 j⟩
  refine (valCopy_apply _ s h).trans ?_
  rw [valBuf_ix2, valuesBlock]

/-- Two consecutive points of one batch. -/
theorem batchOf_pred (n : ℕ) (hn : n < cfg0.N) (h0 : ¬n % 8 = 0) :
    batchOf ⟨n - 1, Nat.lt_of_le_of_lt (Nat.sub_le _ _) hn⟩ = batchOf ⟨n, hn⟩ :=
  Fin.ext (by show (n - 1) / 8 = n / 8; omega)

/-- After every point the carried buffers hold the projected keys and the values of the point's batch. -/
theorem carried : ∀ (n : ℕ) (hn : n < cfg0.N),
    (outsAt0 m c n hn).2.1 = keyBuf m c (batchOf ⟨n, hn⟩) ∧ (outsAt0 m c n hn).2.2 = valBuf m c (batchOf ⟨n, hn⟩)
  | n, hn => by
    by_cases h0 : n % 8 = 0
    · rw [outsAt0_A m c ⟨n, hn⟩ h0]
      constructor
      · rw [keyScratch_A]; exact keyStore_eq m c ⟨n, hn⟩
      · rw [valScratch_A]; exact valStore_eq m c ⟨n, hn⟩
    · have hpos : n - 1 < n := by omega
      obtain ⟨ih1, ih2⟩ := carried (n - 1) (Nat.lt_of_le_of_lt (Nat.sub_le _ _) hn)
      have hb := batchOf_pred n hn h0
      rw [outsAt0_B m c ⟨n, hn⟩ h0]
      exact ⟨ih1.trans (congrArg (keyBuf m c) hb), ih2.trans (congrArg (valBuf m c) hb)⟩
  termination_by n => n

/-- The tile every point leaves for the write-back: the body's arithmetic of the point's query block, the weights
    and biases, and the buffers of the point's batch. -/
theorem outTile_eq (t : Fin cfg0.N) :
    (outsAt0 m c t.val t.isLt).1
      = k0_pay1 (k0_pay4 (iblk m c 0 t) (iblk m c 3 t) (iblk m c 4 t) (keyBuf m c (batchOf t)) (valBuf m c (batchOf t)))
          (k0_pay5 (iblk m c 7 t)) (iblk m c 8 t) := by
  by_cases h0 : t.val % 8 = 0
  · rw [outsAt0_A m c t h0, out_A, keyStore_eq, valStore_eq]
  · obtain ⟨ih1, ih2⟩ := carried m c (t.val - 1) (Nat.lt_of_le_of_lt (Nat.sub_le _ _) t.isLt)
    rw [outsAt0_B m c t h0, out_B, ih1, ih2, batchOf_pred t.val t.isLt h0]

/-- The score row of a point's query row is the score row of the specification at the batch and the row. -/
theorem scoreTile_eq (t : Fin cfg0.N) (r : Fin 128) :
    scoreTile (iblk m c 0 t) (iblk m c 3 t) (iblk m c 4 t) (keyBuf m c (batchOf t)) r
      = score (proj (m ((c : Thread nD τ).loc main_arg0)) (m ((c : Thread nD τ).loc main_arg3)) (m ((c : Thread nD τ).loc main_arg4))) (proj (m ((c : Thread nD τ).loc main_arg1)) (m ((c : Thread nD τ).loc main_arg5)) (m ((c : Thread nD τ).loc main_arg6))) (batchOf t) (rowOf t r) := by
  funext s
  unfold scoreTile score qTile
  simp only [keyBuf_ix2, queryBlock, wqBlock, bqBlock]
  rfl

/-- What point `t` writes back is block `t` of the attention result of the argument arrays. -/
theorem flushed_eq (t : Fin cfg0.N) :
    (dats m 0 c).flushed 9 t = ((cfg0.win 9).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed9, outTile_eq]
  funext y
  obtain ⟨u, r, o, rfl⟩ : ∃ (u : Fin 1) (r : Fin 128) (o : Fin 1024), y = ix3 u r o := ⟨y 0, y 1, y 2, eq_ix3 y⟩
  show k0_pay1 (k0_pay4 (iblk m c 0 t) (iblk m c 3 t) (iblk m c 4 t) (keyBuf m c (batchOf t)) (valBuf m c (batchOf t)))
      (k0_pay5 (iblk m c 7 t)) (iblk m c 8 t) (ix3 u r o)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix3 u r o))
  rw [outEmb, result_ix3]
  refine (outTile_apply _ _ _ u r o).trans ?_
  unfold outAt scaled context weights
  simp only [woLoad, woBlock, boBlock, ctxTile_apply, scoreTile_eq, valBuf_ix2]

/-- Every entry of the result array is in some point's block, so the array ends at the attention result. -/
theorem final : (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) (outCover)

/-- The kernel's run, read: the result array at the attention result, the arguments unchanged. -/
theorem run : θ_run defs (onTc (τ := τ) (main (F := Ideal))) ⟨m, fun _ => 0, ρ⟩ fun r => ∀ c : Dev nD,
      r.2.mem ((c : Thread nD τ).loc main_v9) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.Attn.Kernel

end
-- ==== Proof.lean ====
/-
  The kernel and its reference compute one function.

  The kernel is a fused single-head attention over 16 batches of 1024 rows and width 1024: on a 16 x 8 grid each
  point projects a tile of 128 query rows, scores it against the batch's projected keys (kept, with the batch's
  values, in two buffers written at the batch's first point and carried to its other seven), takes the row-wise
  softmax, forms the context against the values, scales it by 2⁻⁵ and applies the output layer. The reference
  is the same computation written with whole-array operations, dividing the context by √1024.

  On the extended reals a change of float format is the identity and a product into a zero accumulator is the
  host's contraction, so both programs end with the result array at `Cert.Attn.result` of the argument arrays
  (Proof/AttnSpec.lean): the kernel because every grid point writes back the block of that function it is
  responsible for and the blocks fill the array (Proof/KernelValue.lean, over Proof/Pieces.lean,
  Proof/Payloads.lean and Proof/Blocks.lean); the reference operation by operation (Proof/RefAttn.lean). The
  only law used is that dividing by √1024 = 32 is multiplying by 2⁻⁵; no sum is rearranged, and the finiteness
  of the inputs is not needed.

  The three frame claims are the generated frames (the reference's is its generated run with the result
  dropped); the idealization rewrote nothing, so its preservation claim is trivial.
-/
import proofs.«117021_j17970143166479_2_alg».proof.Defs
import proofs.«117021_j17970143166479_2_alg».proof.Proof.Gen.Kernel
import proofs.«117021_j17970143166479_2_alg».proof.Proof.Gen.Kernel.Skeleton
import proofs.«117021_j17970143166479_2_alg».proof.Proof.Gen.Kernel.Launch
import proofs.«117021_j17970143166479_2_alg».proof.Proof.Gen.Kernel.Points
import proofs.«117021_j17970143166479_2_alg».proof.Proof.Gen.Kernel.Frame
import proofs.«117021_j17970143166479_2_alg».proof.Proof.Gen.KernelIdeal
import proofs.«117021_j17970143166479_2_alg».proof.Proof.Gen.KernelIdeal.Skeleton
import proofs.«117021_j17970143166479_2_alg».proof.Proof.Gen.KernelIdeal.Launch
import proofs.«117021_j17970143166479_2_alg».proof.Proof.Gen.KernelIdeal.Points
import proofs.«117021_j17970143166479_2_alg».proof.Proof.Gen.KernelIdeal.Frame
import proofs.«117021_j17970143166479_2_alg».proof.Proof.Gen.ReferenceIdeal
import proofs.«117021_j17970143166479_2_alg».proof.Proof.Gen.Pre_finite_inputs
import proofs.«117021_j17970143166479_2_alg».proof.Proof.Gen.KernelIdeal.Value
import proofs.«117021_j17970143166479_2_alg».proof.Proof.Gen.ReferenceIdeal.Run
import proofs.«117021_j17970143166479_2_alg».proof.Proof.Gen.ReferenceIdeal.Read
import proofs.«117021_j17970143166479_2_alg».proof.Proof.AttnSpec
import proofs.«117021_j17970143166479_2_alg».proof.Proof.RefAttn
import proofs.«117021_j17970143166479_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the nine arguments both programs end with the result array at the attention
    result of those arguments: the kernel by its blocks, the reference by its operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v27_eq, Cert.Attn.Ref.ref_result, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
